-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) (main_arg2 : FVec F S8192x8192 .f32) (main_arg3 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x8192 : Shape := ⟨2, ![8192, 8192]⟩
abbrev S8192 : Shape := ⟨1, ![8192]⟩
abbrev S8192x1 : Shape := ⟨2, ![8192, 1]⟩
abbrev S8192x128 : Shape := ⟨2, ![8192, 128]⟩
abbrev S1x8192 : Shape := ⟨2, ![1, 8192]⟩
abbrev S1024x1024 : Shape := ⟨2, ![1024, 1024]⟩
abbrev S1024x128 : Shape := ⟨2, ![1024, 128]⟩
abbrev S1x1024 : Shape := ⟨2, ![1, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192, .i32⟩
  | .hbm, ⟨4, _⟩ => ⟨S8192x1, .i32⟩
  | .hbm, ⟨5, _⟩ => ⟨S8192x128, .i32⟩
  | .hbm, ⟨6, _⟩ => ⟨S1x8192, .i32⟩
  | .hbm, ⟨7, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x128, .i32⟩
  | .local _ .vmem, ⟨5, _⟩ => ⟨S1024x128, .i32⟩
  | .local _ .vmem, ⟨6, _⟩ => ⟨S1x1024, .i32⟩
  | .local _ .vmem, ⟨7, _⟩ => ⟨S1x1024, .i32⟩
  | .local _ .vmem, ⟨8, _⟩ => ⟨S1024x1024, .f32⟩
  | .local _ .vmem, ⟨9, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192_S8192x1 : S8192.ShapeCasts S8192x1
  bcast_S8192x1_S8192x128_0_1 : S8192x1.BroadcastsInDim S8192x128 (![0, 1] : Fin 2 → Fin S8192x128.rank)
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  inb_S1024x128_S1024x1_0_0 : ∀ a, (![0, 0] : Fin 2 → Nat) a + S1024x1.size a ≤ S1024x128.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .i32 = 32 ∨ (Rect.block (s := S8192x128) S1024x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192, .i32⟩
  | .hbm, ⟨4, _⟩ => ⟨S_, .f32⟩
  | .hbm, ⟨5, _⟩ => ⟨S8192x8192, .f32⟩
  | .hbm, ⟨6, _⟩ => ⟨S8192x8192, .i1⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.Law.lean ====
/-
  One entry of the gated Gaussian mask on the extended reals, in the two arrangements the two programs compute.

  For a spatial distance `s`, a warping distance `d` and the cluster labels `a`, `b` of the entry's row and column, put
  `w = 1` when `a = b` and `w = 0.1` (the f32 nearest to it, the same word in both programs) otherwise. One program forms
  the single exponential `exp (0 - ((s·1)·(s·1) + (d·1)·(d·1)))`, multiplies it by `w`, and keeps the product only where
  `s < 5` (else `0`): the FUSED form. The other gates the first Gaussian alone, `(if s < 5 then exp (-((s/1)·(s/1))) else 0)`,
  then multiplies by `w` and by the second Gaussian `exp (-((d/1)·(d/1)))`: the FACTORED form.

  They are equal at EVERY pair of extended reals, with no finiteness assumed. Multiplying or dividing by `1` changes
  nothing. A square `x·x` is never `-∞` (`(±∞)·(±∞) = +∞`), so `exp (-(x + y)) = exp (-x) · exp (-y)` holds for two squares:
  on reals it is the exponential's functional equation, and if either is `+∞` the sum is `+∞`, its negative `-∞`, and
  both sides are `0` (`exp (-∞) = 0`, and `0` absorbs in the extended reals). Where the gate is open the rest is
  commutativity of the product; where it is shut both sides are `0`.
-/
import Idealize.ShloMosaic.PureOps.Ideal
import Idealize.ShloMosaic.PureOps.Ideal.Laws

noncomputable section

namespace Cert.GatedMask

open Idealize.ShloMosaic

/-- The f32 word `0x3F800000` denotes the real number one. -/
theorem ofBits_one : Ideal.ofBits .f32 0x3F800000#32 = 1 := by
  simp [Ideal.ofBits, Ideal.ieee, -EReal.coe_mul]; norm_num

/-- The quotient by one is the identity on every extended real. -/
theorem div_one (x : EReal) : Ideal.div x 1 = x := by
  have h := Ideal.div_coe (y := 1) one_ne_zero x
  simpa using h

/-- A square is never `-∞`: the square of a real is real, and `(±∞)·(±∞) = +∞`. -/
theorem sq_ne_bot (x : EReal) : x * x ≠ ⊥ := by
  induction x using EReal.rec with
  | bot => simp
  | coe r => rw [← EReal.coe_mul]; exact EReal.coe_ne_bot _
  | top => simp

/-- The exponential of the negated sum is the product of the exponentials of the negated terms, for terms that are
    not `-∞`: the functional equation on reals; when a term is `+∞` both sides are `0`. -/
theorem exp_neg_add (x y : EReal) (hx : x ≠ ⊥) (hy : y ≠ ⊥) :
    Ideal.exp (-(x + y)) = Ideal.exp (-x) * Ideal.exp (-y) := by
  induction x using EReal.rec with
  | bot => exact absurd rfl hx
  | top => rw [EReal.top_add_of_ne_bot hy, EReal.neg_top, Ideal.exp_bot, zero_mul]
  | coe r =>
    induction y using EReal.rec with
    | bot => exact absurd rfl hy
    | top => rw [EReal.add_top_of_ne_bot (EReal.coe_ne_bot r), EReal.neg_top, Ideal.exp_bot, mul_zero]
    | coe q =>
      rw [← EReal.coe_add, ← EReal.coe_neg, ← EReal.coe_neg, ← EReal.coe_neg, Ideal.exp_coe, Ideal.exp_coe, Ideal.exp_coe,
        ← EReal.coe_mul, neg_add, Real.exp_add]

/-- The two arrangements with the gate `g` and the cluster weight `w` left abstract: gating the first Gaussian and then
    multiplying by `w` and the second Gaussian is gating the product of `w` with the single fused exponential. -/
theorem gate_mul (s d w : EReal) (g : BitVec 1) :
    Scalar.select g (Ideal.exp (-(Ideal.div s 1 * Ideal.div s 1))) 0 * w * Ideal.exp (-(Ideal.div d 1 * Ideal.div d 1))
      = Scalar.select g (Ideal.exp (0 - (s * 1 * (s * 1) + d * 1 * (d * 1))) * w) 0 := by
  rw [div_one, div_one, mul_one, mul_one, zero_sub, exp_neg_add _ _ (sq_ne_bot s) (sq_ne_bot d)]
  unfold Scalar.select
  split_ifs
  · exact mul_right_comm _ _ _
  · rw [zero_mul, zero_mul]

/-- The FUSED form of one entry: one exponential of the negated sum of the two squares, times the cluster weight, kept
    where `s < 5`. -/
def fused (s d : Ideal .f32) (a b : BitVec 32) : Ideal .f32 :=
  Scalar.select (FloatOps.cmpf .olt s (Scalar.ofBits .f32 0x40A00000#32))
    (FloatOps.mulf
      (FloatOps.exp (FloatOps.subf (Scalar.ofBits .f32 0x00000000#32)
        (FloatOps.addf
          (FloatOps.mulf (FloatOps.mulf s (Scalar.ofBits .f32 0x3F800000#32)) (FloatOps.mulf s (Scalar.ofBits .f32 0x3F800000#32)))
          (FloatOps.mulf (FloatOps.mulf d (Scalar.ofBits .f32 0x3F800000#32)) (FloatOps.mulf d (Scalar.ofBits .f32 0x3F800000#32))))))
      (Scalar.select (IntOp.cmpi .eq a b) (Scalar.ofBits .f32 0x3F800000#32) (Scalar.ofBits .f32 0x3DCCCCCD#32)))
    (Scalar.ofBits .f32 0x00000000#32)

/-- The FACTORED form of one entry: the first Gaussian gated at `s < 5`, times the cluster weight, times the second
    Gaussian. -/
def factored (s d : Ideal .f32) (a b : BitVec 32) : Ideal .f32 :=
  FloatOps.mulf
    (FloatOps.mulf
      (Scalar.select (FloatOps.cmpf .olt s (FloatOps.ofBits .f32 0x40A00000#32))
        (FloatOps.hostUnary .exp (FloatOps.hostNegf
          (FloatOps.mulf (FloatOps.hostDivf s (FloatOps.ofBits .f32 0x3F800000#32)) (FloatOps.hostDivf s (FloatOps.ofBits .f32 0x3F800000#32)))))
        (FloatOps.ofBits .f32 0x00000000#32))
      (Scalar.select (IntOp.cmpi .eq a b) (FloatOps.ofBits .f32 0x3F800000#32) (FloatOps.ofBits .f32 0x3DCCCCCD#32)))
    (FloatOps.hostUnary .exp (FloatOps.hostNegf
      (FloatOps.mulf (FloatOps.hostDivf d (FloatOps.ofBits .f32 0x3F800000#32)) (FloatOps.hostDivf d (FloatOps.ofBits .f32 0x3F800000#32)))))

/-- The two forms of one entry are equal at every pair of extended reals and every pair of labels. -/
theorem factored_eq_fused (s d : Ideal .f32) (a b : BitVec 32) : factored s d a b = fused s d a b := by
  unfold factored fused
  simp only [Ideal.ofBits_def, ofBits_one, Ideal.ofBits_zero_f32, Ideal.mulf_def, Ideal.addf_def, Ideal.subf_def,
    Ideal.exp_def, Ideal.hostUnary_exp_def, Ideal.hostNegf_def, Ideal.negf_def, Ideal.hostDivf_def]
  exact gate_mul s d _ _

/-! ## The whole mask -/

/-- The shape of the three N×N matrices (N = 8192) and of the label vector. -/
abbrev Mat : Shape := ⟨2, ![8192, 8192]⟩
abbrev Lab : Shape := ⟨1, ![8192]⟩

/-- The label index a matrix index's row names, and the one its column names. -/
abbrev rowOf (i : Mat.Idx) : Lab.Idx := fun a => match a with | ⟨0, _⟩ => ⟨(i 0).val, (i 0).isLt⟩
abbrev colOf (i : Mat.Idx) : Lab.Idx := fun a => match a with | ⟨0, _⟩ => ⟨(i 1).val, (i 1).isLt⟩

/-- THE MASK as one function of the argument arrays: entry `(r, c)` is the fused form of the spatial distance and the
    warping distance at `(r, c)` and of the cluster labels of `r` and of `c`. -/
def mask (sd dtw : Mat.Idx → Ideal .f32) (lab : Lab.Idx → BitVec 32) : Mat.Idx → Ideal .f32 :=
  fun i => fused (sd i) (dtw i) (lab (rowOf i)) (lab (colOf i))

end Cert.GatedMask

end
-- ==== Proof.Payload.lean ====
/-
  The kernel body's stored value read at one index of a block.

  The body compares the row labels' first lane, a `[1024, 1]` column broadcast along the lanes, with the column labels, a
  `[1, 1024]` row broadcast down the sublanes. At block index `(p, q)` the first broadcast reads the column at `(p, 0)` and
  the second the row at `(0, q)`; everything else in the body is pointwise. So the stored value at `(p, q)` is the fused
  form of the two distance blocks at `(p, q)` and of those two labels.
-/
import proofs.«175699_j23914377904869_2_alg».proof.Proof.Gen.KernelIdeal.Skeleton
import proofs.«175699_j23914377904869_2_alg».proof.Proof.Law
import Idealize.ShloMosaic.Lib.Pipeline.Value
import Idealize.ShloMosaic.Lib.ValueIdx

noncomputable section

namespace Cert.GatedMask

open Idealize.ShloMosaic Idealize.ShloMosaic.ValueIdx Cert.KernelIdeal Cert.KernelIdeal.Gen

/-- A `[1024, 1]` column broadcast to `[1024, 1024]` reads, at `(p, q)`, the column at `(p, 0)`. -/
theorem bcast_col_apply (P : IVec S1024x1 32) (p q : Fin 1024) :
    broadcastTo S1024x1024 (shapeCast S1024x1 P shapeCasts_S1024x1_S1024x1) broadcasts_S1024x1_S1024x1024 (ix2 p q)
      = P (ix2 p (0 : Fin 1)) := by
  rw [shapeCast_self]
  exact broadcastTo_apply P broadcasts_S1024x1_S1024x1024 (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A `[1, 1024]` row broadcast to `[1024, 1024]` reads, at `(p, q)`, the row at `(0, q)`. -/
theorem bcast_row_apply (P : IVec S1x1024 32) (p q : Fin 1024) :
    broadcastTo S1024x1024 (shapeCast S1x1024 P shapeCasts_S1x1024_S1x1024) broadcasts_S1x1024_S1024x1024 (ix2 p q)
      = P (ix2 (0 : Fin 1) q) := by
  rw [shapeCast_self]
  exact broadcastTo_apply P broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- THE STORED VALUE AT `(p, q)`: the fused form of the distance blocks there and of the row label at `(p, 0)` and the
    column label at `(0, q)`. -/
theorem payload_apply (P0 P1 : Vec Ideal S1024x1024 .f32) (P2 : Vec Ideal S1024x1 .i32) (P3 : Vec Ideal S1x1024 .i32)
    (p q : Fin 1024) :
    k0_pay1 P0 P1 P2 P3 (ix2 p q) = fused (P0 (ix2 p q)) (P1 (ix2 p q)) (P2 (ix2 p (0 : Fin 1))) (P3 (ix2 (0 : Fin 1) q)) := by
  have key : k0_pay1 P0 P1 P2 P3 (ix2 p q) = fused (P0 (ix2 p q)) (P1 (ix2 p q))
      (broadcastTo S1024x1024 (shapeCast S1024x1 P2 shapeCasts_S1024x1_S1024x1) broadcasts_S1024x1_S1024x1024 (ix2 p q))
      (broadcastTo S1024x1024 (shapeCast S1x1024 P3 shapeCasts_S1x1024_S1x1024) broadcasts_S1x1024_S1024x1024 (ix2 p q)) := rfl
  rw [key, bcast_col_apply, bcast_row_apply]

end Cert.GatedMask

end
-- ==== Proof.Tables.lean ====
/-
  The two label tables the region stages, as the host operations before it leave them.

  The label vector `lab` of length N is laid out twice before the region: as an `[N, 128]` table whose row `r` carries
  `lab r` in every lane (the vector viewed as a column `[N, 1]`, then repeated along the lanes), and as a `[1, N]` row
  (the vector viewed as one row). So the first table at `(r, l)` is `lab r` whatever the lane `l`, and the second at
  `(0, c)` is `lab c`.
-/
import proofs.«175699_j23914377904869_2_alg».proof.Proof.Gen.KernelIdeal.Frame
import proofs.«175699_j23914377904869_2_alg».proof.Proof.Law
import Idealize.ShloMosaic.Lib.Pipeline.Value
import Idealize.ShloMosaic.Lib.StableHlo.Run

noncomputable section

namespace Cert.GatedMask

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The `[N, 128]` table at region entry: the label vector as a column, repeated along the lanes. -/
theorem rowTable_eq (c : Dev nD) :
    (V m c main_v1 : S8192x128.Idx → BitVec 32)
      = broadcastInDim S8192x128 ![0, 1] bcast_S8192x1_S8192x128_0_1
          (shapeCast S8192x1 (m ((c : Thread nD τ).loc main_arg3)) shapeCasts_S8192_S8192x1) := by
  dsimp only [V, hostOps0]; after_results; rfl

/-- The `[1, N]` table at region entry: the label vector as one row. -/
theorem colTable_eq (c : Dev nD) :
    (V m c main_v2 : S1x8192.Idx → BitVec 32)
      = shapeCast S1x8192 (m ((c : Thread nD τ).loc main_arg3)) shapeCasts_S8192_S1x8192 := by
  dsimp only [V, hostOps0]; after_results; rfl

/-- The column-then-lanes layout at `k` is the label of `k`'s row. -/
theorem rowTable_apply (lab : S8192.Idx → BitVec 32) (k : S8192x128.Idx) (r : S8192.Idx) (hr : (r 0).val = (k 0).val) :
    broadcastInDim S8192x128 ![0, 1] bcast_S8192x1_S8192x128_0_1 (shapeCast S8192x1 lab shapeCasts_S8192_S8192x1) k = lab r := by
  refine (broadcastInDim_apply _ bcast_S8192x1_S8192x128_0_1 _ k
    (fun a => match a with | ⟨0, _⟩ => ⟨(k 0).val, (k 0).isLt⟩ | ⟨1, _⟩ => ⟨0, Nat.one_pos⟩ : S8192x1.Idx) (fun a => match a with
      | ⟨0, _⟩ => by show (k 0).val = if (8192 : Nat) = 1 then 0 else (k 0).val; rw [if_neg (by decide)]
      | ⟨1, _⟩ => by show 0 = if (1 : Nat) = 1 then 0 else (k 1).val; rw [if_pos rfl])).trans ?_
  refine shapeCast_apply lab shapeCasts_S8192_S8192x1 _ r ?_
  rw [Shape.rowMajor_val_one, Shape.rowMajor_val_two]
  show (r 0).val = (k 0).val * 1 + 0
  omega

/-- The one-row layout at `k` is the label of `k`'s column. -/
theorem colTable_apply (lab : S8192.Idx → BitVec 32) (k : S1x8192.Idx) (r : S8192.Idx) (hr : (r 0).val = (k 1).val) :
    shapeCast S1x8192 lab shapeCasts_S8192_S1x8192 k = lab r := by
  refine shapeCast_apply lab shapeCasts_S8192_S1x8192 k r ?_
  rw [Shape.rowMajor_val_one, Shape.rowMajor_val_two]
  have h0 : (k 0).val < 1 := (k 0).isLt
  show (r 0).val = (k 0).val * 8192 + (k 1).val
  omega

end Cert.GatedMask

end
-- ==== Proof.Blocks.lean ====
/-
  From blocks to the array: after the run the output array is the mask of the argument arrays.

  The grid is 8 × 8 and point `(i, j)` works on the `1024 × 1024` block `(i, j)` of the two distance matrices and of the
  output, on rows `1024·i …` of the `[N, 128]` label table (of which the body reads lane 0) and on columns `1024·j …` of the
  `[1, N]` label table. So entry `(p, q)` of the block the point writes back depends on the distance matrices at
  `(1024·i + p, 1024·j + q)`, on the label of row `1024·i + p` and on the label of column `1024·j + q`: it is the mask at
  that index. The 64 blocks tile the array (index `(r, c)` lies in block `(r / 1024, c / 1024)`), so the whole array ends
  as the mask.
-/
import proofs.«175699_j23914377904869_2_alg».proof.Proof.Gen.KernelIdeal.Frame
import proofs.«175699_j23914377904869_2_alg».proof.Proof.Payload
import proofs.«175699_j23914377904869_2_alg».proof.Proof.Tables
import Idealize.ShloMosaic.Lib.Pipeline.Value

noncomputable section

namespace Cert.GatedMask

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The block indices of the five windows at a grid point, decided over the 64 points: the distance blocks move with
    the output block on both axes, the row-label table with it on the rows (lane block 0), the column-label table with
    it on the columns (row block 0), and the output's block indices stay below 8. -/
theorem block_indices : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every pair of block indices below 8 is some grid point's output block. -/
theorem block_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- WHAT POINT `t` WRITES BACK is block `t` of the mask of the argument arrays. -/
theorem wrote_eq (c : Dev nD) (t : Fin cfg0.N) :
    (dats m 0 c).flushed 4 t = ((cfg0.win 4).blk t).view.read (Elt Ideal)
      (mask (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero zero_offsets]
  simp only [View.ld_unit_zero (S := S1024x1024) zero_offsets, View.ld_unit_zero (S := S1x1024) zero_offsets]
  obtain ⟨e0, e1, e2, e3, e4, e5, e6, e7, e8, e9⟩ := block_indices t
  funext j
  obtain ⟨p, q, rfl⟩ : ∃ (p q : Fin 1024), j = ix2 p q := ⟨j 0, j 1, eq_ix2 j⟩
  refine (payload_apply (iblk m c 0 t) (iblk m c 1 t) (View.ld (iblk m c 2 t) r0_1) (iblk m c 3 t) p q).trans ?_
  have h0 : iblk m c 0 t (ix2 p q) = m ((c : Thread nD τ).loc main_arg1) (((cfg0.win 4).blk t).view.emb (ix2 p q)) := by
    show V m c main_arg1 (((cfg0.win 0).blk t).view.emb (ix2 p q)) = _
    rw [V_main_arg1]
    refine congrArg _ (funext fun a => Fin.ext ?_)
    match a with
    | ⟨0, _⟩ => show win0_0.index t (0 : Fin 2) * 1024 + 1 * p.val = win0_4.index t (0 : Fin 2) * 1024 + 1 * p.val; omega
    | ⟨1, _⟩ => show win0_0.index t (1 : Fin 2) * 1024 + 1 * q.val = win0_4.index t (1 : Fin 2) * 1024 + 1 * q.val; omega
  have h1 : iblk m c 1 t (ix2 p q) = m ((c : Thread nD τ).loc main_arg2) (((cfg0.win 4).blk t).view.emb (ix2 p q)) := by
    show V m c main_arg2 (((cfg0.win 1).blk t).view.emb (ix2 p q)) = _
    rw [V_main_arg2]
    refine congrArg _ (funext fun a => Fin.ext ?_)
    match a with
    | ⟨0, _⟩ => show win0_1.index t (0 : Fin 2) * 1024 + 1 * p.val = win0_4.index t (0 : Fin 2) * 1024 + 1 * p.val; omega
    | ⟨1, _⟩ => show win0_1.index t (1 : Fin 2) * 1024 + 1 * q.val = win0_4.index t (1 : Fin 2) * 1024 + 1 * q.val; omega
  have h2 : View.ld (iblk m c 2 t) r0_1 (ix2 p (0 : Fin 1))
      = m ((c : Thread nD τ).loc main_arg3) (rowOf (((cfg0.win 4).blk t).view.emb (ix2 p q))) := by
    show V m c main_v1 (((cfg0.win 2).blk t).view.emb (r0_1.emb (ix2 p (0 : Fin 1)))) = _
    rw [rowTable_eq]
    refine rowTable_apply _ _ _ ?_
    show win0_4.index t (0 : Fin 2) * 1024 + 1 * p.val = win0_2.index t (0 : Fin 2) * 1024 + 1 * (0 + 1 * p.val)
    omega
  have h3 : iblk m c 3 t (ix2 (0 : Fin 1) q)
      = m ((c : Thread nD τ).loc main_arg3) (colOf (((cfg0.win 4).blk t).view.emb (ix2 p q))) := by
    show V m c main_v2 (((cfg0.win 3).blk t).view.emb (ix2 (0 : Fin 1) q)) = _
    rw [colTable_eq]
    refine colTable_apply _ _ _ ?_
    show win0_4.index t (1 : Fin 2) * 1024 + 1 * q.val = win0_3.index t (1 : Fin 2) * 1024 + 1 * q.val
    omega
  rw [h0, h1, h2, h3]
  rfl

/-- An index of the array is in point `t`'s output block iff each coordinate is in the block's range on its axis. -/
theorem mem_block (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- THE BLOCKS TILE THE ARRAY: index `(r, c)` lies in the block of the point whose output block is `(r / 1024, c / 1024)`. -/
theorem covered (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE ARRAY after the run is the mask of the argument arrays. -/
theorem final (c : Dev nD) : (dats m 0 c).arrAt 4 cfg0.N
    = mask (m ((c : Thread nD τ).loc main_arg1)) (m ((c : Thread nD τ).loc main_arg2)) (m ((c : Thread nD τ).loc main_arg3)) :=
  (dats m 0 c).arrAt_eq_of_cover 4 _ (fun t _ => wrote_eq m c t) covered

/-- THE RUN, READ: every weakly fair execution of the kernel's program terminates with the result array at the mask of
    the argument arrays and the argument arrays unchanged. -/
theorem run : θ_run defs (onTc (τ := τ) (main (F := Ideal))) ⟨m, fun _ => 0, ρ⟩ fun r => ∀ c : Dev nD,
      r.2.mem ((c : Thread nD τ).loc main_v3)
        = mask (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.GatedMask

end
-- ==== Proof.Reference.lean ====
/-
  The reference's result is the mask.

  Read at an index `(r, c)`, the reference's last stage is the product of three factors: the first Gaussian of the spatial
  distance at `(r, c)` gated at `s < 5`; the cluster weight, a select on the equality of the label vector broadcast down
  the rows (so read at `r`) and along the columns (so read at `c`); and the second Gaussian of the warping distance at
  `(r, c)`. That is the factored form of the entry, which equals the fused form the mask is stated with.
-/
import proofs.«175699_j23914377904869_2_alg».proof.Proof.Gen.ReferenceIdeal.Read
import proofs.«175699_j23914377904869_2_alg».proof.Proof.Law

noncomputable section

namespace Cert.GatedMask

open Idealize.ShloMosaic Cert.ReferenceIdeal Cert.ReferenceIdeal.Gen Cert.ReferenceIdeal.Read

/-- The reference's last stage, as a function of the two distance matrices and the label vector, is the mask. -/
theorem reference_eq (x1 x2 : (⟨S8192x8192, .f32⟩ : BufTy).Contents (Elt Ideal)) (x3 : (⟨S8192, .i32⟩ : BufTy).Contents (Elt Ideal)) :
    val_main_v21 (F := Ideal) x1 x2 x3 = mask x1 x2 x3 := by
  funext i
  have hr : idx_main_v9 (idx_main_v11 i) = rowOf i := funext fun a => match a with | ⟨0, _⟩ => rfl
  have hc : idx_main_v10 (idx_main_v12 i) = colOf i := funext fun a => match a with | ⟨0, _⟩ => rfl
  simp only [val_main_v21_apply, val_main_v20_apply, val_main_v19_apply, val_main_v18_apply, val_main_v17_apply,
    val_main_v16_apply, val_main_v15_apply, val_main_cst_4_apply, val_main_v14_apply, val_main_v13_apply,
    val_main_v11_apply, val_main_v9_apply, val_main_v12_apply, val_main_v10_apply, val_main_call1_v0_apply,
    val_main_cst_2_apply, val_main_call1_v1_apply, val_main_cst_3_apply, val_main_v8_apply, val_main_v1_apply,
    val_main_v0_apply, val_main_cst_apply, val_main_v6_apply, val_main_v5_apply, val_main_v4_apply, val_main_v3_apply,
    val_main_v2_apply, val_main_cst_0_apply, val_main_v7_apply, val_main_cst_1_apply, hr, hc]
  exact factored_eq_fused (x1 i) (x2 i) (x3 (rowOf i)) (x3 (colOf i))

end Cert.GatedMask

end
-- ==== Proof.lean ====
/-
  The gated Gaussian mask over N = 8192 points: a tiled kernel against its array-level reference, on the extended reals.

  For a spatial distance matrix `sd`, a warping distance matrix `dtw` and a vector of cluster labels `lab`, entry `(r, c)`
  of the result is `exp (-sd²) · exp (-dtw²) · w` where `sd < 5` and `0` elsewhere, with `w = 1` when `lab r = lab c` and
  `w = 0.1` (as an f32) otherwise. The reference computes it in that factored arrangement, gating the first Gaussian; the
  kernel computes the single exponential `exp (0 - (sd² + dtw²))`, multiplies by `w` and gates the product. Read exactly, the
  two arrangements are one function of every pair of extended reals (Proof/Law.lean): squares are never `-∞`, so the
  exponential of the negated sum is the product of the two exponentials (both sides `0` when a square is `+∞`), the rest
  is commutativity of the product, and a shut gate gives `0` on both sides. No finiteness of the inputs is used.

  The kernel's side: at block index `(p, q)` of grid point `(i, j)` the stored value is the fused entry of the distance blocks
  at `(p, q)`, of the row-label table's lane 0 at row `p` and of the column-label table at column `q` (Proof/Payload.lean);
  the two label tables are the label vector laid out as a column repeated along lanes and as one row (Proof/Tables.lean);
  so the block written back is block `(i, j)` of the mask, and the 64 blocks tile the array (Proof/Blocks.lean). The
  reference's side: its last stage read at an index is the factored entry (Proof/Reference.lean). The three programs'
  frames are the generated ones; the idealization rewrote nothing, so there is nothing to preserve.
-/
import proofs.«175699_j23914377904869_2_alg».proof.Defs
import proofs.«175699_j23914377904869_2_alg».proof.Proof.Gen.Kernel
import proofs.«175699_j23914377904869_2_alg».proof.Proof.Gen.Kernel.Skeleton
import proofs.«175699_j23914377904869_2_alg».proof.Proof.Gen.Kernel.Launch
import proofs.«175699_j23914377904869_2_alg».proof.Proof.Gen.Kernel.Points
import proofs.«175699_j23914377904869_2_alg».proof.Proof.Gen.Kernel.Frame
import proofs.«175699_j23914377904869_2_alg».proof.Proof.Gen.KernelIdeal
import proofs.«175699_j23914377904869_2_alg».proof.Proof.Gen.KernelIdeal.Skeleton
import proofs.«175699_j23914377904869_2_alg».proof.Proof.Gen.KernelIdeal.Launch
import proofs.«175699_j23914377904869_2_alg».proof.Proof.Gen.KernelIdeal.Points
import proofs.«175699_j23914377904869_2_alg».proof.Proof.Gen.KernelIdeal.Frame
import proofs.«175699_j23914377904869_2_alg».proof.Proof.Gen.ReferenceIdeal
import proofs.«175699_j23914377904869_2_alg».proof.Proof.Gen.Pre_finite_inputs
import proofs.«175699_j23914377904869_2_alg».proof.Proof.Gen.ReferenceIdeal.Run
import proofs.«175699_j23914377904869_2_alg».proof.Proof.Gen.ReferenceIdeal.Read
import proofs.«175699_j23914377904869_2_alg».proof.Proof.Blocks
import proofs.«175699_j23914377904869_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with the result array at the mask of the
    arguments: the kernel's blocks tile it, the reference's last stage is it index by index. -/
theorem algebraic : Cert.algebraic_KernelIdeal_ReferenceIdeal := by
  intro m ρ m' ρ' _ hagree
  refine ⟨fun c => Cert.GatedMask.mask (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.GatedMask.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.GatedMask.reference_eq, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
